-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S500x16 : Shape := ⟨2, ![500, 16]⟩
abbrev S16 : Shape := ⟨1, ![16]⟩
abbrev S16x3 : Shape := ⟨2, ![16, 3]⟩
abbrev S3 : Shape := ⟨1, ![3]⟩
abbrev S2x3200000 : Shape := ⟨2, ![2, 3200000]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x500 .f32) (main_arg1 : FVec F S500x16 .f32) (main_arg2 : FVec F S16 .f32) (main_arg3 : FVec F S16x3 .f32) (main_arg4 : FVec F S3 .f32) (main_arg5 : IVec S2x3200000 32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg1
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg4 main_v13 main_v16
-- ==== Kernel.lean ====
abbrev S100000x500 : Shape := ⟨2, ![100000, 500]⟩
abbrev S500x16 : Shape := ⟨2, ![500, 16]⟩
abbrev S16 : Shape := ⟨1, ![16]⟩
abbrev S16x3 : Shape := ⟨2, ![16, 3]⟩
abbrev S3 : Shape := ⟨1, ![3]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x500 : Shape := ⟨2, ![4000, 500]⟩
abbrev S4000x16 : Shape := ⟨2, ![4000, 16]⟩
abbrev S3300000x16 : Shape := ⟨2, ![3300000, 16]⟩
abbrev S1x16 : Shape := ⟨2, ![1, 16]⟩
abbrev S100000x3 : Shape := ⟨2, ![100000, 3]⟩
abbrev S4000x3 : Shape := ⟨2, ![4000, 3]⟩
abbrev S3300000x3 : Shape := ⟨2, ![3300000, 3]⟩
abbrev S1x3 : Shape := ⟨2, ![1, 3]⟩
abbrev S100000x1 : Shape := ⟨2, ![100000, 1]⟩

abbrev nBuf : Space → Nat
  | .hbm => 100
  | .vmem => 10
  | .smem => 0
  | _ => 0

abbrev bufTy : (tb : Table) → Fin (tcTables nBuf tb) → BufTy
  | .hbm, ⟨0, _⟩ => ⟨S100000x500, .f32⟩
  | .hbm, ⟨1, _⟩ => ⟨S500x16, .f32⟩
  | .hbm, ⟨2, _⟩ => ⟨S16, .f32⟩
  | .hbm, ⟨3, _⟩ => ⟨S16x3, .f32⟩
  | .hbm, ⟨4, _⟩ => ⟨S3, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x16, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x16, .f32⟩
  | .hbm, ⟨52, _⟩ => ⟨S3300000x1, .f32⟩
  | .hbm, ⟨53, _⟩ => ⟨S3300000x16, .f32⟩
  | .hbm, ⟨54, _⟩ => ⟨S3300000x16, .f32⟩
  | .hbm, ⟨55, _⟩ => ⟨S_, .f32⟩
  | .hbm, ⟨56, _⟩ => ⟨S100000x16, .f32⟩
  | .hbm, ⟨57, _⟩ => ⟨S3300000x1, .i32⟩
  | .hbm, ⟨58, _⟩ => ⟨S100000x16, .f32⟩
  | .hbm, ⟨59, _⟩ => ⟨S1x16, .f32⟩
  | .hbm, ⟨60, _⟩ => ⟨S100000x16, .f32⟩
  | .hbm, ⟨61, _⟩ => ⟨S100000x16, .f32⟩
  | .hbm, ⟨62, _⟩ => ⟨S_, .f32⟩
  | .hbm, ⟨63, _⟩ => ⟨S100000x16, .f32⟩
  | .hbm, ⟨64, _⟩ => ⟨S100000x16, .f32⟩
  | .hbm, ⟨65, _⟩ => ⟨S100000x3, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x3, .f32⟩
  | .hbm, ⟨75, _⟩ => ⟨S3300000x1, .f32⟩
  | .hbm, ⟨76, _⟩ => ⟨S3300000x3, .f32⟩
  | .hbm, ⟨77, _⟩ => ⟨S3300000x3, .f32⟩
  | .hbm, ⟨78, _⟩ => ⟨S_, .f32⟩
  | .hbm, ⟨79, _⟩ => ⟨S100000x3, .f32⟩
  | .hbm, ⟨80, _⟩ => ⟨S3300000x1, .i32⟩
  | .hbm, ⟨81, _⟩ => ⟨S100000x3, .f32⟩
  | .hbm, ⟨82, _⟩ => ⟨S1x3, .f32⟩
  | .hbm, ⟨83, _⟩ => ⟨S100000x3, .f32⟩
  | .hbm, ⟨84, _⟩ => ⟨S100000x3, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x3, .f32⟩
  | .hbm, ⟨92, _⟩ => ⟨S100000x3, .f32⟩
  | .hbm, ⟨93, _⟩ => ⟨S100000x3, .f32⟩
  | .hbm, ⟨94, _⟩ => ⟨S_, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x3, .f32⟩
  | .hbm, ⟨99, _⟩ => ⟨S100000x3, .f32⟩
  | .local _ .vmem, ⟨0, _⟩ => ⟨S4000x500, .f32⟩
  | .local _ .vmem, ⟨1, _⟩ => ⟨S4000x500, .f32⟩
  | .local _ .vmem, ⟨2, _⟩ => ⟨S500x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16x3, .f32⟩
  | .local _ .vmem, ⟨8, _⟩ => ⟨S4000x3, .f32⟩
  | .local _ .vmem, ⟨9, _⟩ => ⟨S4000x3, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x3_S16x3_0_0 : ∀ a, (![0, 0] : Fin 2 → Nat) a + S16x3.size a ≤ S16x3.size a
  h_S16x3 : 0 < S16x3.numel
  inb_S4000x3_S4000x3_0_0 : ∀ a, (![0, 0] : Fin 2 → Nat) a + S4000x3.size a ≤ S4000x3.size a
  h_S4000x3 : 0 < S4000x3.numel
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x500_S500x16_S4000x16_1_0_0_1_n_n_wf : DotDims.WF S4000x500 S500x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x3_S4000x3_1_0_0_1_n_n_wf : DotDims.WF S4000x16 S16x3 S4000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x3.size a ≤ S16x3.size a
  hwx1_1 : ∀ i : grid1.Coords, EltTy.bits .f32 = 32 ∨ (Rect.block (s := S16x3) S16x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S100000x3.size a
  hwx1_2 : ∀ i : grid1.Coords, EltTy.bits .f32 = 32 ∨ (Rect.block (s := S100000x3) S4000x3.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x500_S500x16_S4000x16_1_0_0_1_n_n : DotDims S4000x500 S500x16 S4000x16 where
  lhsContracting := [1]
  rhsContracting := [0]
  lhsNonContracting := [0]
  rhsNonContracting := [1]
  lhsBatch := []
  rhsBatch := []
  wf := dot_S4000x500_S500x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x3_S4000x3_1_0_0_1_n_n : DotDims S4000x16 S16x3 S4000x3 where
  lhsContracting := [1]
  rhsContracting := [0]
  lhsNonContracting := [0]
  rhsNonContracting := [1]
  lhsBatch := []
  rhsBatch := []
  wf := dot_S4000x16_S16x3_S4000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S500x16 : Shape := ⟨2, ![500, 16]⟩
abbrev S16 : Shape := ⟨1, ![16]⟩
abbrev S16x3 : Shape := ⟨2, ![16, 3]⟩
abbrev S3 : Shape := ⟨1, ![3]⟩
abbrev S2x3200000 : Shape := ⟨2, ![2, 3200000]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x3 : Shape := ⟨2, ![100000, 3]⟩
abbrev S3300000x3 : Shape := ⟨2, ![3300000, 3]⟩
abbrev S1x3 : Shape := ⟨2, ![1, 3]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x500, .f32⟩
  | 1 => ⟨S500x16, .f32⟩
  | 2 => ⟨S16, .f32⟩
  | 3 => ⟨S16x3, .f32⟩
  | 4 => ⟨S3, .f32⟩
  | 5 => ⟨S2x3200000, .i32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000x16, .f32⟩
  | 52 => ⟨S3300000x1, .f32⟩
  | 53 => ⟨S3300000x16, .f32⟩
  | 54 => ⟨S3300000x16, .f32⟩
  | 55 => ⟨S_, .f32⟩
  | 56 => ⟨S100000x16, .f32⟩
  | 57 => ⟨S3300000x1, .i32⟩
  | 58 => ⟨S100000x16, .f32⟩
  | 59 => ⟨S1x16, .f32⟩
  | 60 => ⟨S100000x16, .f32⟩
  | 61 => ⟨S100000x16, .f32⟩
  | 62 => ⟨S_, .f32⟩
  | 63 => ⟨S100000x16, .f32⟩
  | 64 => ⟨S100000x16, .f32⟩
  | 65 => ⟨S100000x3, .f32⟩
  | 66 => ⟨S100000, .i32⟩
  | 67 => ⟨S3300000, .i32⟩
  | 68 => ⟨S3300000, .i32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x3, .f32⟩
  | 107 => ⟨S3300000x1, .f32⟩
  | 108 => ⟨S3300000x3, .f32⟩
  | 109 => ⟨S3300000x3, .f32⟩
  | 110 => ⟨S_, .f32⟩
  | 111 => ⟨S100000x3, .f32⟩
  | 112 => ⟨S3300000x1, .i32⟩
  | 113 => ⟨S100000x3, .f32⟩
  | 114 => ⟨S1x3, .f32⟩
  | 115 => ⟨S100000x3, .f32⟩
  | 116 => ⟨S100000x3, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x3, .f32⟩
  | 124 => ⟨S100000x3, .f32⟩
  | 125 => ⟨S100000x3, .f32⟩
  | 126 => ⟨S_, .f32⟩
  | 127 => ⟨S100000, .f32⟩
  | _ => ⟨S100000x500, .f32⟩

abbrev hbmTy0_1 (i : Nat) : BufTy := match i % 128 with
  | 0 => ⟨S100000x1, .f32⟩
  | 1 => ⟨S100000x1, .f32⟩
  | 2 => ⟨S100000x3, .f32⟩
  | 3 => ⟨S100000x3, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_call1_cst_0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_cst_1 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_v89 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  dot_S100000x500_S500x16_S100000x16_1_0_0_1_n_n_wf : DotDims.WF S100000x500 S500x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x3_S100000x3_1_0_0_1_n_n_wf : DotDims.WF S100000x16 S16x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.KRun.lean ====
/-
  The idealized kernel's whole run, with every buffer named. The program is seven segments: three stretches of host
  operations (the last two cut in two where an outlined function is called) around two tiled matrix products. Such a
  program terminates from any launch memory, and its final memory is determined buffer by buffer: every buffer that is
  not a staging buffer of a region holds the contents of the last boundary of the fold through the segments — the
  launch contents pushed through the first stretch, the first product's write-backs, the second stretch, the second
  product's write-backs, and the last stretch. This module states that once, for any float instance; that the
  arguments end unchanged and what the result array holds are both readings of it.
-/
import proofs.«144744_j16801912062043_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each buffer
    outside the regions' staging memory holds what the fold through the seven segments leaves there: the launch
    contents pushed through the first stretch, the first product's write-backs, the second stretch, the second
    product's write-backs, and the last stretch. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c b hb)

/-- The same run read at one reference of the TensorCore that is not scoped to a region. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W7 m ρ c (Proc.devRef .tc b)) :=
  (θ_run defs _ _).mono (fun _ h c => h c _ (mem_uc b hb)) (run_all m ρ)

end Cert.KernelIdeal.WholeRun

end
-- ==== Proof.Spec.lean ====
/-
  The two programs as one composition of array functions. Both compute a two-layer graph convolution followed by a
  row-wise log-softmax. From the edge list come two index vectors, each edge's source and destination followed by one
  self-loop per node; the degree of a node is the number of entries of the destination vector equal to it, and an
  entry's weight is the product of the inverse square roots of the degrees (each at least one) of its two ends, read
  through the wrap-around of negative indices. A layer takes a matrix of node features already multiplied by the
  layer's weight matrix, gathers its rows by source, scales each by the entry's weight, adds them up by destination,
  and adds the bias; the first layer ends in a maximum with zero, the second in the log-softmax over the three
  classes. Everything here is generic in the float instance and mentions no matrix product: the products are the
  arguments `h` and `h2`, so that the same functions serve a program that multiplies in tiles and one that
  multiplies whole.
-/
import proofs.«144744_j16801912062043_1_alg».proof.Proof.Gen.ReferenceIdeal

set_option maxRecDepth 65536

noncomputable section

namespace Cert.Gcn

open Cert.ReferenceIdeal Cert.ReferenceIdeal.Gen Idealize.ShloMosaic Idealize.ShloMosaic.TcCoe

variable {F : FTy → Type} [FloatOps F]

/-- The sources of the entries: the edge list's first row, then every node once. -/
def srcIdx (e : (⟨S2x3200000, .i32⟩ : BufTy).Contents (Elt F)) : (⟨S3300000, .i32⟩ : BufTy).Contents (Elt F) :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

/-- The destinations of the entries: the edge list's second row, then every node once. -/
def dstIdx (e : (⟨S2x3200000, .i32⟩ : BufTy).Contents (Elt F)) : (⟨S3300000, .i32⟩ : BufTy).Contents (Elt F) :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

/-- The weight of each entry: with `deg` the number of entries whose destination is a node, the product of
    `1 / sqrt (max deg 1)` at the entry's source and at its destination. -/
def edgeNorm (s d : (⟨S3300000, .i32⟩ : BufTy).Contents (Elt F)) : (⟨S3300000, .f32⟩ : BufTy).Contents (Elt F) :=
  (mulf (Host.gather gather_S100000_S3300000x1_S3300000_n_0_n_n_0_1_1 (Host.rsqrt (maximumf (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))) (broadcastInDim S100000 ![] bcast_S_S100000 (constant S_ .f32 0x3F800000#32)))) (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (Host.gather gather_S100000_S3300000x1_S3300000_n_0_n_n_0_1_1 (Host.rsqrt (maximumf (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))) (broadcastInDim S100000 ![] bcast_S_S100000 (constant S_ .f32 0x3F800000#32)))) (broadcastInDim S3300000x1 ![0] bcast_S3300000_S3300000x1_0 (select (cmpi .slt d (broadcastInDim S3300000 ![] bcast_S_S3300000 (constantI S_ 32 0#32))) (addi d (broadcastInDim S3300000 ![] bcast_S_S3300000 (constantI S_ 32 100000#32))) d))))

/-- The first layer after its matrix product `h`: rows gathered by source, weighted, summed by destination, the bias
    added, and the maximum with zero. -/
def hiddenLayer (s d : (⟨S3300000, .i32⟩ : BufTy).Contents (Elt F)) (nrm : (⟨S3300000, .f32⟩ : BufTy).Contents (Elt F))
    (b1 : (⟨S16, .f32⟩ : BufTy).Contents (Elt F)) (h : (⟨S100000x16, .f32⟩ : BufTy).Contents (Elt F)) :
    (⟨S100000x16, .f32⟩ : BufTy).Contents (Elt F) :=
  (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 h (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x16 ![0, 1] bcast_S3300000x1_S3300000x16_0_1 (broadcastInDim S3300000x1 ![0] bcast_S3300000_S3300000x1_0 nrm)))) (broadcastInDim S100000x16 ![0, 1] bcast_S1x16_S100000x16_0_1 (broadcastInDim S1x16 ![1] bcast_S16_S1x16_1 b1))) (broadcastInDim S100000x16 ![] bcast_S_S100000x16 (constant S_ .f32 0x00000000#32)))

/-- The second layer after its matrix product `h2`: the same aggregation over three columns, the bias added, and
    the log-softmax of each row (the row's maximum subtracted, then the logarithm of the sum of exponentials). -/
def outLayer (s d : (⟨S3300000, .i32⟩ : BufTy).Contents (Elt F)) (nrm : (⟨S3300000, .f32⟩ : BufTy).Contents (Elt F))
    (b2 : (⟨S3, .f32⟩ : BufTy).Contents (Elt F)) (h2 : (⟨S100000x3, .f32⟩ : BufTy).Contents (Elt F)) :
    (⟨S100000x3, .f32⟩ : BufTy).Contents (Elt F) :=
  subf (subf (addf (Host.scatterAdd scatter_S100000x3_S3300000x1_S3300000x3_1_0_0_1 (broadcastInDim S100000x3 ![] bcast_S_S100000x3 (constant S_ .f32 0x00000000#32)) (broadcastInDim S3300000x1 ![0] bcast_S3300000_S3300000x1_0 d) (mulf (Host.gather gather_S100000x3_S3300000x1_S3300000x3_1_0_n_n_0_1_13 h2 (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x3 ![0, 1] bcast_S3300000x1_S3300000x3_0_1 (broadcastInDim S3300000x1 ![0] bcast_S3300000_S3300000x1_0 nrm)))) (broadcastInDim S100000x3 ![0, 1] bcast_S1x3_S100000x3_0_1 (broadcastInDim S1x3 ![1] bcast_S3_S1x3_1 b2))) (broadcastInDim S100000x3 ![0, 1] bcast_S100000x1_S100000x3_0_1 (broadcastInDim S100000x1 ![0] bcast_S100000_S100000x1_0 (maximumf (broadcastInDim S100000 ![] bcast_S_S100000 (constant S_ .f32 0xFF800000#32)) (Host.reduce FloatOps.maximumf (addf (Host.scatterAdd scatter_S100000x3_S3300000x1_S3300000x3_1_0_0_1 (broadcastInDim S100000x3 ![] bcast_S_S100000x3 (constant S_ .f32 0x00000000#32)) (broadcastInDim S3300000x1 ![0] bcast_S3300000_S3300000x1_0 d) (mulf (Host.gather gather_S100000x3_S3300000x1_S3300000x3_1_0_n_n_0_1_13 h2 (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x3 ![0, 1] bcast_S3300000x1_S3300000x3_0_1 (broadcastInDim S3300000x1 ![0] bcast_S3300000_S3300000x1_0 nrm)))) (broadcastInDim S100000x3 ![0, 1] bcast_S1x3_S100000x3_0_1 (broadcastInDim S1x3 ![1] bcast_S3_S1x3_1 b2))) (constant S_ .f32 0xFF800000#32) reducesTo_S100000x3_S100000_d1 h_S_))))) (broadcastInDim S100000x3 ![0, 1] bcast_S100000x1_S100000x3_0_1 (Host.log (broadcastInDim S100000x1 ![0] bcast_S100000_S100000x1_0 (Host.reduceAdd (Host.exp (subf (addf (Host.scatterAdd scatter_S100000x3_S3300000x1_S3300000x3_1_0_0_1 (broadcastInDim S100000x3 ![] bcast_S_S100000x3 (constant S_ .f32 0x00000000#32)) (broadcastInDim S3300000x1 ![0] bcast_S3300000_S3300000x1_0 d) (mulf (Host.gather gather_S100000x3_S3300000x1_S3300000x3_1_0_n_n_0_1_13 h2 (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x3 ![0, 1] bcast_S3300000x1_S3300000x3_0_1 (broadcastInDim S3300000x1 ![0] bcast_S3300000_S3300000x1_0 nrm)))) (broadcastInDim S100000x3 ![0, 1] bcast_S1x3_S100000x3_0_1 (broadcastInDim S1x3 ![1] bcast_S3_S1x3_1 b2))) (broadcastInDim S100000x3 ![0, 1] bcast_S100000x1_S100000x3_0_1 (broadcastInDim S100000x1 ![0] bcast_S100000_S100000x1_0 (maximumf (broadcastInDim S100000 ![] bcast_S_S100000 (constant S_ .f32 0xFF800000#32)) (Host.reduce FloatOps.maximumf (addf (Host.scatterAdd scatter_S100000x3_S3300000x1_S3300000x3_1_0_0_1 (broadcastInDim S100000x3 ![] bcast_S_S100000x3 (constant S_ .f32 0x00000000#32)) (broadcastInDim S3300000x1 ![0] bcast_S3300000_S3300000x1_0 d) (mulf (Host.gather gather_S100000x3_S3300000x1_S3300000x3_1_0_n_n_0_1_13 h2 (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x3 ![0, 1] bcast_S3300000x1_S3300000x3_0_1 (broadcastInDim S3300000x1 ![0] bcast_S3300000_S3300000x1_0 nrm)))) (broadcastInDim S100000x3 ![0, 1] bcast_S1x3_S100000x3_0_1 (broadcastInDim S1x3 ![1] bcast_S3_S1x3_1 b2))) (constant S_ .f32 0xFF800000#32) reducesTo_S100000x3_S100000_d1 h_S_)))))) (constant S_ .f32 0x00000000#32) reducesTo_S100000x3_S100000_d1 h_S_))))

/-- The whole network as one function of the six arguments: the second layer of the matrix product of the first
    layer's hidden features with the second weight matrix, the first layer being taken of the matrix product of the node
    features with the first weight matrix; the index vectors and the entry weights are those of the edge list. -/
def network (x : (⟨S100000x500, .f32⟩ : BufTy).Contents (Elt F)) (w1 : (⟨S500x16, .f32⟩ : BufTy).Contents (Elt F))
    (b1 : (⟨S16, .f32⟩ : BufTy).Contents (Elt F)) (w2 : (⟨S16x3, .f32⟩ : BufTy).Contents (Elt F))
    (b2 : (⟨S3, .f32⟩ : BufTy).Contents (Elt F)) (e : (⟨S2x3200000, .i32⟩ : BufTy).Contents (Elt F)) :
    (⟨S100000x3, .f32⟩ : BufTy).Contents (Elt F) :=
  outLayer (srcIdx e) (dstIdx e) (edgeNorm (srcIdx e) (dstIdx e)) b2
    (Host.dotGeneral dot_S100000x16_S16x3_S100000x3_1_0_0_1_n_n none
      (hiddenLayer (srcIdx e) (dstIdx e) (edgeNorm (srcIdx e) (dstIdx e)) b1
        (Host.dotGeneral dot_S100000x500_S500x16_S100000x16_1_0_0_1_n_n none x w1))
      w2)

end Cert.Gcn

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.KStretches.lean ====
/-
  The idealized kernel's three stretches of host operations, each read as one array function of the buffers it is
  entered with. The first stretch builds the two index vectors and the entry weights from the edge list; the second
  takes the first matrix product to the hidden features; the third takes the second matrix product to the result. The
  functions are the ones of the specification: a stretch's operations composed are, term for term, the corresponding
  specification function applied to the contents the stretch reads. Where a stretch calls an outlined function (the
  maximum with zero; the log-softmax), that function's operations read and write through typed references, whose
  transports are first removed: a round trip through one typed reference is the identity, and the transport at a literal
  reference is the identity on any contents.
-/
import proofs.«144744_j16801912062043_1_alg».proof.Proof.Gen.KernelIdeal.Frame
import proofs.«144744_j16801912062043_1_alg».proof.Proof.Spec
import proofs.«144744_j16801912062043_1_alg».proof.Proof.LibTypedRef

set_option maxRecDepth 65536

noncomputable section

namespace Cert.KernelIdeal.Stretches

open Cert.KernelIdeal Cert.KernelIdeal.Gen Idealize.ShloMosaic Idealize.ShloMosaic.TcCoe Idealize.SL.Sem Idealize.ShloMosaic.StableHlo
open Cert.Gcn Cert.Lib.TypedRef

variable {F : FTy → Type} [FloatOps F]
variable (m : (ℓ : Loc nD τ sig) → Buf (Elt F) ℓ) (ρ : Dev nD → PrngReg)

/-! ## The first stretch: index vectors and weights from the edge list -/

/-- After the first stretch the source vector is the specification's, of the edge list as launched. -/
theorem src_at (c : Dev nD) :
    W1 m ρ c (Proc.devRef .tc main_v5) = srcIdx (F := F) (m ((c : Thread nD τ).loc main_arg5)) := by
  show StableHlo.after hostOps0 (W0 m ρ c) (Proc.devRef .tc main_v5) = _
  after_results
  rfl

/-- After the first stretch the destination vector is the specification's. -/
theorem dst_at (c : Dev nD) :
    W1 m ρ c (Proc.devRef .tc main_v6) = dstIdx (F := F) (m ((c : Thread nD τ).loc main_arg5)) := by
  show StableHlo.after hostOps0 (W0 m ρ c) (Proc.devRef .tc main_v6) = _
  after_results
  rfl

/-- After the first stretch the entry weights are the specification's, of the two index vectors. -/
theorem norm_at (c : Dev nD) :
    W1 m ρ c (Proc.devRef .tc main_v28)
      = edgeNorm (F := F) (srcIdx (m ((c : Thread nD τ).loc main_arg5))) (dstIdx (m ((c : Thread nD τ).loc main_arg5))) := by
  show StableHlo.after hostOps0 (W0 m ρ c) (Proc.devRef .tc main_v28) = _
  after_results_simp
  rfl

/-! ## The second stretch: from the first product to the hidden features -/

/-- The hidden features are the specification's first layer of what the second stretch is entered with: the index
    vectors, the weights, the first bias and the first product's array. -/
theorem hidden_at (c : Dev nD) :
    W4 m ρ c (Proc.devRef .tc main_v46)
      = hiddenLayer (F := F) (W2 m ρ c (Proc.devRef .tc main_v5)) (W2 m ρ c (Proc.devRef .tc main_v6))
          (W2 m ρ c (Proc.devRef .tc main_v28)) (W2 m ρ c (Proc.devRef .tc main_arg2)) (W2 m ρ c (Proc.devRef .tc main_v29)) := by
  show StableHlo.after hostOps1_1 (StableHlo.after hostOps1 (W2 m ρ c)) (Proc.devRef .tc main_v46) = _
  after_results_simp
  rfl

/-! ## The third stretch: from the second product to the result -/

/-- Writing the result through its typed reference changes nothing. -/
theorem toBuf_result (X : (⟨S100000x3, .f32⟩ : BufTy).Contents (Elt F)) :
    (TRef.of (sig := sig) (T := ⟨S100000x3, .f32⟩) main_v64).toBuf X = X := rfl

/-- Reading the biased aggregate through its typed reference changes nothing. -/
theorem ofBuf_logits (X : (⟨S100000x3, .f32⟩ : BufTy).Contents (Elt F)) :
    (TRef.of (sig := sig) (T := ⟨S100000x3, .f32⟩) main_v63).ofBuf X = X := rfl

/-- The result is the specification's second layer of what the third stretch is entered with: the index vectors, the
    weights, the second bias and the second product's array. -/
theorem out_at (c : Dev nD) :
    W7 m ρ c (Proc.devRef .tc main_v64)
      = outLayer (F := F) (W5 m ρ c (Proc.devRef .tc main_v5)) (W5 m ρ c (Proc.devRef .tc main_v6))
          (W5 m ρ c (Proc.devRef .tc main_v28)) (W5 m ρ c (Proc.devRef .tc main_arg4)) (W5 m ρ c (Proc.devRef .tc main_v47)) := by
  show StableHlo.after hostOps2_1 (StableHlo.after hostOps2 (W5 m ρ c)) (Proc.devRef .tc main_v64) = _
  after_results_simp
  simp only [ofBuf_toBuf, toBuf_result, ofBuf_logits]
  rfl

end Cert.KernelIdeal.Stretches

end
-- ==== Proof.KValue.lean ====
/-
  What the idealized kernel's result array holds, as one closed form of the argument arrays. The fold through the
  program's segments is read backwards: the result is the specification's second layer of the buffers the third stretch
  reads; of these, the second product's array is the whole matrix product of the hidden features with the second weight
  matrix, the hidden features are the specification's first layer of the buffers the second stretch reads, the first
  product's array is the whole matrix product of the node features with the first weight matrix; and every other buffer
  that a later stretch reads — the two index vectors, the entry weights, the biases and the weight matrices — was last
  written before the first product (or never), so it is carried back unchanged through the stretches that do not write it
  and through the regions whose arrays it is not among.
-/
import proofs.«144744_j16801912062043_1_alg».proof.Proof.KStretches

set_option maxRecDepth 65536

noncomputable section

namespace Cert.KernelIdeal.ResultValue

open Cert.KernelIdeal Cert.KernelIdeal.Gen Idealize.ShloMosaic Idealize.ShloMosaic.TcCoe Idealize.SL.Sem Idealize.ShloMosaic.StableHlo
open Cert.Gcn Cert.KernelIdeal.Stretches

variable {F : FTy → Type} [FloatOps F]
variable (m : (ℓ : Loc nD τ sig) → Buf (Elt F) ℓ) (ρ : Dev nD → PrngReg)

/-! ## The first stretch writes no argument -/

theorem arg0_at_entry0 (c : Dev nD) : W1 m ρ c (Proc.devRef .tc main_arg0) = m ((c : Thread nD τ).loc main_arg0) := by
  show StableHlo.after hostOps0 (W0 m ρ c) (Proc.devRef .tc main_arg0) = _
  after_results_simp <;> rfl
theorem arg1_at_entry0 (c : Dev nD) : W1 m ρ c (Proc.devRef .tc main_arg1) = m ((c : Thread nD τ).loc main_arg1) := by
  show StableHlo.after hostOps0 (W0 m ρ c) (Proc.devRef .tc main_arg1) = _
  after_results_simp <;> rfl
theorem arg2_at_entry0 (c : Dev nD) : W1 m ρ c (Proc.devRef .tc main_arg2) = m ((c : Thread nD τ).loc main_arg2) := by
  show StableHlo.after hostOps0 (W0 m ρ c) (Proc.devRef .tc main_arg2) = _
  after_results_simp <;> rfl
theorem arg3_at_entry0 (c : Dev nD) : W1 m ρ c (Proc.devRef .tc main_arg3) = m ((c : Thread nD τ).loc main_arg3) := by
  show StableHlo.after hostOps0 (W0 m ρ c) (Proc.devRef .tc main_arg3) = _
  after_results_simp <;> rfl
theorem arg4_at_entry0 (c : Dev nD) : W1 m ρ c (Proc.devRef .tc main_arg4) = m ((c : Thread nD τ).loc main_arg4) := by
  show StableHlo.after hostOps0 (W0 m ρ c) (Proc.devRef .tc main_arg4) = _
  after_results_simp <;> rfl

/-! ## The second stretch writes none of the buffers that are read after it -/

theorem main_v5_through1 (c : Dev nD) : W4 m ρ c (Proc.devRef .tc main_v5) = W2 m ρ c (Proc.devRef .tc main_v5) := by
  show StableHlo.after hostOps1_1 (StableHlo.after hostOps1 (W2 m ρ c)) (Proc.devRef .tc main_v5) = _
  after_results_simp <;> rfl
theorem main_v6_through1 (c : Dev nD) : W4 m ρ c (Proc.devRef .tc main_v6) = W2 m ρ c (Proc.devRef .tc main_v6) := by
  show StableHlo.after hostOps1_1 (StableHlo.after hostOps1 (W2 m ρ c)) (Proc.devRef .tc main_v6) = _
  after_results_simp <;> rfl
theorem main_v28_through1 (c : Dev nD) : W4 m ρ c (Proc.devRef .tc main_v28) = W2 m ρ c (Proc.devRef .tc main_v28) := by
  show StableHlo.after hostOps1_1 (StableHlo.after hostOps1 (W2 m ρ c)) (Proc.devRef .tc main_v28) = _
  after_results_simp <;> rfl
theorem main_arg3_through1 (c : Dev nD) : W4 m ρ c (Proc.devRef .tc main_arg3) = W2 m ρ c (Proc.devRef .tc main_arg3) := by
  show StableHlo.after hostOps1_1 (StableHlo.after hostOps1 (W2 m ρ c)) (Proc.devRef .tc main_arg3) = _
  after_results_simp <;> rfl
theorem main_arg4_through1 (c : Dev nD) : W4 m ρ c (Proc.devRef .tc main_arg4) = W2 m ρ c (Proc.devRef .tc main_arg4) := by
  show StableHlo.after hostOps1_1 (StableHlo.after hostOps1 (W2 m ρ c)) (Proc.devRef .tc main_arg4) = _
  after_results_simp <;> rfl

/-! ## Each buffer a later stretch reads, carried back to where it was made -/

/-- The source vector as the second stretch finds it. -/
theorem src_at_entry1 (c : Dev nD) : W2 m ρ c (Proc.devRef .tc main_v5) = srcIdx (F := F) (m ((c : Thread nD τ).loc main_arg5)) :=
  (W2_of_ne m ρ c main_v5 (by decide)).trans (src_at m ρ c)
theorem dst_at_entry1 (c : Dev nD) : W2 m ρ c (Proc.devRef .tc main_v6) = dstIdx (F := F) (m ((c : Thread nD τ).loc main_arg5)) :=
  (W2_of_ne m ρ c main_v6 (by decide)).trans (dst_at m ρ c)
theorem norm_at_entry1 (c : Dev nD) : W2 m ρ c (Proc.devRef .tc main_v28)
    = edgeNorm (F := F) (srcIdx (m ((c : Thread nD τ).loc main_arg5))) (dstIdx (m ((c : Thread nD τ).loc main_arg5))) :=
  (W2_of_ne m ρ c main_v28 (by decide)).trans (norm_at m ρ c)
theorem bias1_at_entry1 (c : Dev nD) : W2 m ρ c (Proc.devRef .tc main_arg2) = m ((c : Thread nD τ).loc main_arg2) :=
  (W2_of_ne m ρ c main_arg2 (by decide)).trans (arg2_at_entry0 m ρ c)
theorem weight2_at_entry1 (c : Dev nD) : W2 m ρ c (Proc.devRef .tc main_arg3) = m ((c : Thread nD τ).loc main_arg3) :=
  (W2_of_ne m ρ c main_arg3 (by decide)).trans (arg3_at_entry0 m ρ c)
theorem bias2_at_entry1 (c : Dev nD) : W2 m ρ c (Proc.devRef .tc main_arg4) = m ((c : Thread nD τ).loc main_arg4) :=
  (W2_of_ne m ρ c main_arg4 (by decide)).trans (arg4_at_entry0 m ρ c)

/-- The source vector as the third stretch finds it. -/
theorem src_at_entry2 (c : Dev nD) : W5 m ρ c (Proc.devRef .tc main_v5) = srcIdx (F := F) (m ((c : Thread nD τ).loc main_arg5)) :=
  (W5_of_ne m ρ c main_v5 (by decide)).trans ((main_v5_through1 m ρ c).trans (src_at_entry1 m ρ c))
theorem dst_at_entry2 (c : Dev nD) : W5 m ρ c (Proc.devRef .tc main_v6) = dstIdx (F := F) (m ((c : Thread nD τ).loc main_arg5)) :=
  (W5_of_ne m ρ c main_v6 (by decide)).trans ((main_v6_through1 m ρ c).trans (dst_at_entry1 m ρ c))
theorem norm_at_entry2 (c : Dev nD) : W5 m ρ c (Proc.devRef .tc main_v28)
    = edgeNorm (F := F) (srcIdx (m ((c : Thread nD τ).loc main_arg5))) (dstIdx (m ((c : Thread nD τ).loc main_arg5))) :=
  (W5_of_ne m ρ c main_v28 (by decide)).trans ((main_v28_through1 m ρ c).trans (norm_at_entry1 m ρ c))
theorem bias2_at_entry2 (c : Dev nD) : W5 m ρ c (Proc.devRef .tc main_arg4) = m ((c : Thread nD τ).loc main_arg4) :=
  (W5_of_ne m ρ c main_arg4 (by decide)).trans ((main_arg4_through1 m ρ c).trans (bias2_at_entry1 m ρ c))

/-- The second weight matrix as the second product finds it. -/
theorem weight2_at_product2 (c : Dev nD) : V4 m ρ c main_arg3 = m ((c : Thread nD τ).loc main_arg3) :=
  (main_arg3_through1 m ρ c).trans (weight2_at_entry1 m ρ c)

/-- The first product's array after the first region: what the region's write-backs leave. -/
theorem product1_at_entry1 (c : Dev nD) : W2 m ρ c (Proc.devRef .tc main_v29) = (dat0 (V1 m ρ) c).arrAt 2 cfg0.N :=
  W2_arr m ρ c 2
/-- The second product's array after the second region. -/
theorem product2_at_entry2 (c : Dev nD) : W5 m ρ c (Proc.devRef .tc main_v47) = (dat1 (V4 m ρ) c).arrAt 2 cfg1.N :=
  W5_arr m ρ c 2

end Cert.KernelIdeal.ResultValue

end
-- ==== Proof.ProductAtIndex.lean ====
/- The matrix product read at one entry.

   Both pallas_calls of the kernel run the same body on a block of 4000 rows: it multiplies the block of the left
   matrix by the whole right matrix into a zero accumulator. Over the extended reals a change of float format is the
   identity and the product into a zero accumulator is the exact finite sum, so the body's result at row `p` and
   column `q` of the block is `∑ k, l (p, k) * r (k, q)`. The reference's `dot_general` of the whole matrices is, at row
   `p` and column `q`, the sum of the same shape over the same contraction range.

   The four readings (two pallas_calls, two `dot_general`s) come from one fact about a plain matrix product
   [M, K] × [K, N] → [M, N] (no batch axis; the left operand's axis 1 contracts with the right operand's axis 0): at
   output entry (p, q) and contraction position k the operands are read at (p, k) and (k, q), and the sum over the
   record's one-axis contraction index set is the sum over `Fin K`, through the bijection between a one-axis index and
   its coordinate. -/
import proofs.«144744_j16801912062043_1_alg».proof.Proof.Gen.KernelIdeal.Skeleton
import proofs.«144744_j16801912062043_1_alg».proof.Proof.Gen.ReferenceIdeal
import Idealize.ShloMosaic.Lib.ValueIdx
import Idealize.ShloMosaic.Lib.Pipeline.Value
import Idealize.ShloMosaic.PureOps.Ideal.Laws

noncomputable section

namespace Cert.KernelIdeal.Product

open Idealize.ShloMosaic Idealize.ShloMosaic.ValueIdx Cert.KernelIdeal.Gen
open scoped BigOperators

/-! ## A plain matrix product's operand indices, and its sum over `Fin K` -/

section Plain
variable {M K N : Nat} (D : DotDims ⟨2, ![M, K]⟩ ⟨2, ![K, N]⟩ ⟨2, ![M, N]⟩)

/-- With no batch axis and the left operand's axis 0 its only free axis, the left operand's row is the output's row:
    axis 0 is the first of the output's axes. -/
theorem lhs_row (hlb : D.lhsBatch = []) (hln : D.lhsNonContracting = [0])
    (i : (⟨2, ![M, N]⟩ : Shape).Idx) (κ : D.contr.Idx) : (D.lhsIdx i κ 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b → (i ⟨a, ha⟩).val = (i ⟨b, hb⟩).val :=
    fun a b ha hb h => by subst h; rfl
  exact key _ 0 _ Nat.zero_lt_two (by simp [hlb, hln])

/-- With the right operand's axis 1 its only free axis, the right operand's column is the output's column: it comes
    after the left operand's one free axis among the output's axes. -/
theorem rhs_col (hlb : D.lhsBatch = []) (hln : D.lhsNonContracting = [0]) (hrb : D.rhsBatch = []) (hrn : D.rhsNonContracting = [1])
    (i : (⟨2, ![M, N]⟩ : Shape).Idx) (κ : D.contr.Idx) : (D.rhsIdx i κ 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b → (i ⟨a, ha⟩).val = (i ⟨b, hb⟩).val :=
    fun a b ha hb h => by subst h; rfl
  exact key _ 1 _ Nat.one_lt_two (by simp [hlb, hln, hrn])

/-- The contraction sum of a plain matrix product at output entry (p, q): over the record's contraction index set it
    reads the left operand at (p, k) and the right at (k, q), `k` the index's one coordinate, so it is the sum over
    `Fin K` of those products (re-indexed through the bijection; a finite sum, nothing but its index set changes). -/
theorem contr_sum (hr : D.contr.rank = 1) (hs : D.contr.size ⟨0, by omega⟩ = K)
    (hlb : D.lhsBatch = []) (hln : D.lhsNonContracting = [0]) (hlc : D.lhsContracting = [1])
    (hrb : D.rhsBatch = []) (hrn : D.rhsNonContracting = [1]) (hrc : D.rhsContracting = [0])
    (l : (⟨2, ![M, K]⟩ : Shape).Idx → EReal) (r : (⟨2, ![K, N]⟩ : Shape).Idx → EReal) (p : Fin M) (q : Fin N) :
    ∑ κ : D.contr.Idx, l (D.lhsIdx (ix2 p q) κ) * r (D.rhsIdx (ix2 p q) κ) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hlb hln hrb hrn _ _)
  rw [el, er]

end Plain

/-! ## First pallas_call: a [4000, 500] block times the [500, 16] matrix -/

/-- The product of a [4000, 500] block and the [500, 16] matrix into the zero accumulator, at row `p` and column `q`:
    the accumulator adds zero, and what is left is the sum over the 500 contraction positions. -/
theorem matmul0_apply (l : FVec Ideal S4000x500 .bf16) (r : FVec Ideal S500x16 .bf16) (p : Fin 4000) (q : Fin 16) :
    matmul dot_S4000x500_S500x16_S4000x16_1_0_0_1_n_n none l r (constant (F := Ideal) S4000x16 .f32 0x00000000#32) (ix2 p q)
      = ∑ k : Fin 500, l (ix2 p k) * r (ix2 k q) := by
  simp only [matmul]
  rw [Ideal.matmul_constant_zero_apply]
  exact contr_sum dot_S4000x500_S500x16_S4000x16_1_0_0_1_n_n rfl rfl rfl rfl rfl rfl rfl rfl l r p q

/-- What the first pallas_call's body stores, at row `p` and column `q` of its block: the two format changes are the
    identity at the extended reals, so it is the product of the two loaded blocks there. -/
theorem pay0_apply (x0 : Vec Ideal S4000x500 .f32) (x1 : Vec Ideal S500x16 .f32) (p : Fin 4000) (q : Fin 16) :
    k0_pay1 (F := Ideal) x0 x1 (ix2 p q) = ∑ k : Fin 500, x0 (ix2 p k) * x1 (ix2 k q) := by
  unfold k0_pay1
  exact matmul0_apply _ _ p q

/-- The reference's `dot_general` of the [100000, 500] and [500, 16] matrices at row `p` and column `q`. -/
theorem ref0_apply (a : FVec Ideal S100000x500 .f32) (b : FVec Ideal S500x16 .f32) (p : Fin 100000) (q : Fin 16) :
    Host.dotGeneral (F := Ideal) Cert.ReferenceIdeal.dot_S100000x500_S500x16_S100000x16_1_0_0_1_n_n none a b (ix2 p q)
      = ∑ k : Fin 500, a (ix2 p k) * b (ix2 k q) := by
  simp only [Host.dotGeneral]
  rw [Ideal.dotGeneral_apply]
  exact contr_sum Cert.ReferenceIdeal.dot_S100000x500_S500x16_S100000x16_1_0_0_1_n_n rfl rfl rfl rfl rfl rfl rfl rfl a b p q

/-! ## Second pallas_call: a [4000, 16] block times the [16, 3] matrix -/

/-- The product of a [4000, 16] block and the [16, 3] matrix into the zero accumulator, at row `p` and column `q`. -/
theorem matmul1_apply (l : FVec Ideal S4000x16 .bf16) (r : FVec Ideal S16x3 .bf16) (p : Fin 4000) (q : Fin 3) :
    matmul dot_S4000x16_S16x3_S4000x3_1_0_0_1_n_n none l r (constant (F := Ideal) S4000x3 .f32 0x00000000#32) (ix2 p q)
      = ∑ k : Fin 16, l (ix2 p k) * r (ix2 k q) := by
  simp only [matmul]
  rw [Ideal.matmul_constant_zero_apply]
  exact contr_sum dot_S4000x16_S16x3_S4000x3_1_0_0_1_n_n rfl rfl rfl rfl rfl rfl rfl rfl l r p q

/-- What the second pallas_call's body stores, at row `p` and column `q` of its block: the cast of the left block's
    shape to itself and the two format changes are the identity, so it is the product of the two loaded blocks there. -/
theorem pay1_apply (x0 : Vec Ideal S4000x16 .f32) (x1 : Vec Ideal S16x3 .f32) (p : Fin 4000) (q : Fin 3) :
    k1_pay1 (F := Ideal) x0 x1 (ix2 p q) = ∑ k : Fin 16, x0 (ix2 p k) * x1 (ix2 k q) := by
  unfold k1_pay1
  simp only [shapeCast_self]
  exact matmul1_apply _ _ p q

/-- The reference's `dot_general` of the [100000, 16] and [16, 3] matrices at row `p` and column `q`. -/
theorem ref1_apply (a : FVec Ideal S100000x16 .f32) (b : FVec Ideal S16x3 .f32) (p : Fin 100000) (q : Fin 3) :
    Host.dotGeneral (F := Ideal) Cert.ReferenceIdeal.dot_S100000x16_S16x3_S100000x3_1_0_0_1_n_n none a b (ix2 p q)
      = ∑ k : Fin 16, a (ix2 p k) * b (ix2 k q) := by
  simp only [Host.dotGeneral]
  rw [Ideal.dotGeneral_apply]
  exact contr_sum Cert.ReferenceIdeal.dot_S100000x16_S16x3_S100000x3_1_0_0_1_n_n rfl rfl rfl rfl rfl rfl rfl rfl a b p q

end Cert.KernelIdeal.Product

end
-- ==== Proof.Region0Product.lean ====
/- First pallas_call: its output array is the whole matrix product.

   The grid has 25 points. Point `t` stages rows `4000 t … 4000 t + 3999` of the left matrix (all 500 columns) and the
   whole [500, 16] right matrix, and writes back rows `4000 t … 4000 t + 3999` of the output (all 16 columns). What it
   writes at row `p`, column `q` of its block is `∑ k, x0 (p, k) * x1 (k, q)` of the staged blocks, that is
   `∑ k, A (4000 t + p, k) * B (k, q)` of the arrays as the region finds them: row `4000 t + p`, column `q` of the product
   `A · B`. So every point writes its block of ONE function of the arrays, the 25 row blocks cover the 100000 rows (row
   `r` lies in the block of point `r / 4000`), and the array ends holding the product. The reference's `dot_general` of
   the same arrays is the same finite sum entry by entry; nothing but the index set of a finite sum of products is
   compared, so no finiteness of the entries is used. Everything is stated at arbitrary contents `V` of the buffers at
   the region's entry. -/
import proofs.«144744_j16801912062043_1_alg».proof.Proof.Gen.KernelIdeal.Frame
import proofs.«144744_j16801912062043_1_alg».proof.Proof.ProductAtIndex
import Idealize.ShloMosaic.Lib.ValueIdx
import Idealize.ShloMosaic.Lib.Pipeline.Value

noncomputable section

namespace Cert.KernelIdeal.Region0

open Idealize.ShloMosaic Idealize.ShloMosaic.TcCoe Idealize.SL.Sem Idealize.ShloMosaic.ValueIdx
open Cert.KernelIdeal.Gen Cert.KernelIdeal.Product
open Idealize.ShloMosaic.Pipeline (Dat)
open scoped BigOperators

variable (V : (c : Dev nD) → (b : Ref sig .tc) → Buf (Elt Ideal) ((c : Thread nD τ).loc b))

/-- The body's loads and its store go through the whole staging buffers: offsets zero. -/
theorem offsets_zero : (![0, 0] : Fin 2 → Nat) = fun _ => 0 := funext fun a => by fin_cases a <;> rfl

/-- The index maps over the 25 grid points: the left matrix's and the output's block index is (t, 0), the right
    matrix's is (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of a [100000, 500] and a [500, 16] matrix, entry by entry. -/
def product (a : S100000x500.Idx → EReal) (b : S500x16.Idx → EReal) : S100000x16.Idx → EReal :=
  fun i => ∑ k : Fin 500, a (ix2 (i 0) k) * b (ix2 k (i 1))

/-- One entry of what a point stores, over any two blocks: if the left block's row `p` is row `4000 T + p` of `a` and the
    right block is `b`, the payload at entry `y` of the block is the product's entry at row `4000 T + y 0`, column `y 1`. -/
theorem payload_eq_product (a : S100000x500.Idx → EReal) (b : S500x16.Idx → EReal)
    (x0 : Vec Ideal S4000x500 .f32) (x1 : Vec Ideal S500x16 .f32) (T : Nat)
    (h0 : ∀ (p : Fin 4000) (k : Fin 500) (i : S100000x500.Idx), (i 0).val = T * 4000 + p.val → (i 1).val = k.val → x0 (ix2 p k) = a i)
    (h1 : ∀ (k : Fin 500) (q : Fin 16) (i : S500x16.Idx), (i 0).val = k.val → (i 1).val = q.val → x1 (ix2 k q) = b i)
    (y : S4000x16.Idx) (i : S100000x16.Idx) (hi0 : (i 0).val = T * 4000 + (y 0).val) (hi1 : (i 1).val = (y 1).val) :
    k0_pay1 (F := Ideal) x0 x1 y = product a b i := by
  obtain ⟨p, q, rfl⟩ : ∃ (p : Fin 4000) (q : Fin 16), y = ix2 p q := ⟨y 0, y 1, eq_ix2 y⟩
  rw [pay0_apply]
  unfold product
  refine Finset.sum_congr rfl fun k _ => ?_
  exact congrArg₂ (· * ·) (h0 p k _ hi0 rfl) (h1 k q _ rfl hi1)

/-- The left matrix's block at point `t`: its entry (p, k) is the array's entry (4000 t + p, k). -/
theorem left_block (c : Dev nD) (t : Fin cfg0.N) (p : Fin 4000) (k : Fin 500) (i : S100000x500.Idx)
    (hi0 : (i 0).val = t.val * 4000 + p.val) (hi1 : (i 1).val = k.val) :
    (iblk0 V c 0 t : Vec Ideal S4000x500 .f32) (ix2 p k) = (V c main_arg0 : S100000x500.Idx → EReal) i := by
  obtain ⟨e0, e1, -⟩ := block_indices t
  unfold iblk0
  rw [View.read_apply]
  show V c main_arg0 _ = V c main_arg0 _
  refine congrArg (V c main_arg0) ?_
  funext a
  apply Fin.ext
  match a with
  | ⟨0, _⟩ => show win0_0.index t (0 : Fin 2) * 4000 + 1 * p.val = (i 0).val; omega
  | ⟨1, _⟩ => show win0_0.index t (1 : Fin 2) * 500 + 1 * k.val = (i 1).val; omega

/-- The right matrix's block at any point is the whole array: its entry (k, q) is the array's entry (k, q). -/
theorem right_block (c : Dev nD) (t : Fin cfg0.N) (k : Fin 500) (q : Fin 16) (i : S500x16.Idx)
    (hi0 : (i 0).val = k.val) (hi1 : (i 1).val = q.val) :
    (iblk0 V c 1 t : Vec Ideal S500x16 .f32) (ix2 k q) = (V c main_arg1 : S500x16.Idx → EReal) i := by
  obtain ⟨-, -, e0, e1, -⟩ := block_indices t
  unfold iblk0
  rw [View.read_apply]
  show V c main_arg1 _ = V c main_arg1 _
  refine congrArg (V c main_arg1) ?_
  funext a
  apply Fin.ext
  match a with
  | ⟨0, _⟩ => show win0_1.index t (0 : Fin 2) * 500 + 1 * k.val = (i 0).val; omega
  | ⟨1, _⟩ => show win0_1.index t (1 : Fin 2) * 16 + 1 * q.val = (i 1).val; omega

/-- What point `t` writes back is block `t` of the product of the two arrays as the region finds them. -/
theorem flushed_eq (c : Dev nD) (t : Fin cfg0.N) :
    (dat0 (F := Ideal) V c).flushed 2 t
      = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero offsets_zero]
  simp only [View.ld_unit_zero (S := S4000x500) offsets_zero, View.ld_unit_zero (S := S500x16) offsets_zero]
  obtain ⟨-, -, -, -, e0, e1⟩ := block_indices t
  funext j
  show k0_pay1 (iblk0 V c 0 t) (iblk0 V c 1 t) j
    = product (V c main_arg0) (V c main_arg1) (((cfg0.win 2).blk t).view.emb j)
  refine payload_eq_product (V c main_arg0) (V c main_arg1) (iblk0 V c 0 t) (iblk0 V c 1 t) t.val
    (fun p k i h0 h1 => left_block V c t p k i h0 h1) (fun k q i h0 h1 => right_block V c t k q i h0 h1)
    j (((cfg0.win 2).blk t).view.emb j) ?_ ?_
  · show win0_2.index t (0 : Fin 2) * 4000 + 1 * (j 0).val = t.val * 4000 + (j 0).val; omega
  · show win0_2.index t (1 : Fin 2) * 16 + 1 * (j 1).val = (j 1).val; omega

/-- An entry of the output array is in point `t`'s block iff each coordinate is in the block's range on its axis. -/
theorem mem_block (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_v29).slice (win0_2.rect t)).set ↔ _
  rw [View.set_slice_whole, Rect.mem_set_unit]
  exact Iff.rfl

/-- The 25 row blocks cover the array: row `r` is in the block of point `r / 4000`, and every point writes back. -/
theorem cover (i : S100000x16.Idx) :
    ∃ t : Fin cfg0.N, (cfg0.win 2).flush t = true ∧ i ∈ ((cfg0.win 2).blk t).view.set := by
  have hN : cfg0.N = 25 := N_0
  have hi0 : (i 0).val < 100000 := (i 0).isLt
  have hi1 : (i 1).val < 16 := (i 1).isLt
  let t : Fin cfg0.N := ⟨(i 0).val / 4000, by rw [hN]; omega⟩
  obtain ⟨-, -, -, -, e0, e1⟩ := block_indices t
  have ht : t.val = (i 0).val / 4000 := rfl
  refine ⟨t, flush0_2 t, ?_⟩
  rw [mem_block]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 16 ≤ (i 1).val ∧ (i 1).val < win0_2.index t (1 : Fin 2) * 16 + 16
    omega

/-- The output array after the region is the product of the two arrays as the region finds them, entry by entry. -/
theorem array_product (c : Dev nD) :
    (dat0 (F := Ideal) V c).arrAt 2 cfg0.N = product (V c main_arg0) (V c main_arg1) :=
  (dat0 V c).arrAt_eq_of_cover 2 (product (V c main_arg0) (V c main_arg1)) (fun t _ => flushed_eq V c t) cover

/-- The reference's `dot_general` of two arrays is their product, entry by entry. -/
theorem dotGeneral_eq_product (a : FVec Ideal S100000x500 .f32) (b : FVec Ideal S500x16 .f32) :
    Host.dotGeneral (F := Ideal) Cert.ReferenceIdeal.dot_S100000x500_S500x16_S100000x16_1_0_0_1_n_n none a b = product a b := by
  funext i
  obtain ⟨p, q, rfl⟩ : ∃ (p : Fin 100000) (q : Fin 16), i = ix2 p q := ⟨i 0, i 1, eq_ix2 i⟩
  exact ref0_apply a b p q

/-- The first pallas_call's output array after the region is the reference's `dot_general` of its two operand arrays
    as the region finds them. -/
theorem array_eq (c : Dev nD) :
    (dat0 (F := Ideal) V c).arrAt 2 cfg0.N
      = Host.dotGeneral (F := Ideal) (φ₁ := .f32) (φ₂ := .f32) Cert.ReferenceIdeal.dot_S100000x500_S500x16_S100000x16_1_0_0_1_n_n none
          (V c main_arg0) (V c main_arg1) :=
  (array_product V c).trans (dotGeneral_eq_product (V c main_arg0) (V c main_arg1)).symm

end Cert.KernelIdeal.Region0

end
-- ==== Proof.Region1Product.lean ====
/- Second pallas_call: its output array is the whole matrix product.

   The grid has 25 points. Point `t` stages rows `4000 t … 4000 t + 3999` of the left matrix (all 16 columns) and the
   whole [16, 3] right matrix, and writes back rows `4000 t … 4000 t + 3999` of the output (all 3 columns). What it writes
   at row `p`, column `q` of its block is `∑ k, x0 (p, k) * x1 (k, q)` of the staged blocks, that is
   `∑ k, A (4000 t + p, k) * B (k, q)` of the arrays as the region finds them: row `4000 t + p`, column `q` of the product
   `A · B`. So every point writes its block of ONE function of the arrays, the 25 row blocks cover the 100000 rows (row
   `r` lies in the block of point `r / 4000`), and the array ends holding the product. The reference's `dot_general` of
   the same arrays is the same finite sum entry by entry; nothing but the index set of a finite sum of products is
   compared, so no finiteness of the entries is used. Everything is stated at arbitrary contents `V` of the buffers at
   the region's entry. -/
import proofs.«144744_j16801912062043_1_alg».proof.Proof.Gen.KernelIdeal.Frame
import proofs.«144744_j16801912062043_1_alg».proof.Proof.ProductAtIndex
import Idealize.ShloMosaic.Lib.ValueIdx
import Idealize.ShloMosaic.Lib.Pipeline.Value

noncomputable section

namespace Cert.KernelIdeal.Region1

open Idealize.ShloMosaic Idealize.ShloMosaic.TcCoe Idealize.SL.Sem Idealize.ShloMosaic.ValueIdx
open Cert.KernelIdeal.Gen Cert.KernelIdeal.Product
open Idealize.ShloMosaic.Pipeline (Dat)
open scoped BigOperators

variable (V : (c : Dev nD) → (b : Ref sig .tc) → Buf (Elt Ideal) ((c : Thread nD τ).loc b))

/-- The body's loads and its store go through the whole staging buffers: offsets zero. -/
theorem offsets_zero : (![0, 0] : Fin 2 → Nat) = fun _ => 0 := funext fun a => by fin_cases a <;> rfl

/-- The index maps over the 25 grid points: the left matrix's and the output's block index is (t, 0), the right
    matrix's is (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The product of a [100000, 16] and a [16, 3] matrix, entry by entry. -/
def product (a : S100000x16.Idx → EReal) (b : S16x3.Idx → EReal) : S100000x3.Idx → EReal :=
  fun i => ∑ k : Fin 16, a (ix2 (i 0) k) * b (ix2 k (i 1))

/-- One entry of what a point stores, over any two blocks: if the left block's row `p` is row `4000 T + p` of `a` and the
    right block is `b`, the payload at entry `y` of the block is the product's entry at row `4000 T + y 0`, column `y 1`. -/
theorem payload_eq_product (a : S100000x16.Idx → EReal) (b : S16x3.Idx → EReal)
    (x0 : Vec Ideal S4000x16 .f32) (x1 : Vec Ideal S16x3 .f32) (T : Nat)
    (h0 : ∀ (p : Fin 4000) (k : Fin 16) (i : S100000x16.Idx), (i 0).val = T * 4000 + p.val → (i 1).val = k.val → x0 (ix2 p k) = a i)
    (h1 : ∀ (k : Fin 16) (q : Fin 3) (i : S16x3.Idx), (i 0).val = k.val → (i 1).val = q.val → x1 (ix2 k q) = b i)
    (y : S4000x3.Idx) (i : S100000x3.Idx) (hi0 : (i 0).val = T * 4000 + (y 0).val) (hi1 : (i 1).val = (y 1).val) :
    k1_pay1 (F := Ideal) x0 x1 y = product a b i := by
  obtain ⟨p, q, rfl⟩ : ∃ (p : Fin 4000) (q : Fin 3), y = ix2 p q := ⟨y 0, y 1, eq_ix2 y⟩
  rw [pay1_apply]
  unfold product
  refine Finset.sum_congr rfl fun k _ => ?_
  exact congrArg₂ (· * ·) (h0 p k _ hi0 rfl) (h1 k q _ rfl hi1)

/-- The left matrix's block at point `t`: its entry (p, k) is the array's entry (4000 t + p, k). -/
theorem left_block (c : Dev nD) (t : Fin cfg1.N) (p : Fin 4000) (k : Fin 16) (i : S100000x16.Idx)
    (hi0 : (i 0).val = t.val * 4000 + p.val) (hi1 : (i 1).val = k.val) :
    (iblk1 V c 0 t : Vec Ideal S4000x16 .f32) (ix2 p k) = (V c main_v46 : S100000x16.Idx → EReal) i := by
  obtain ⟨e0, e1, -⟩ := block_indices t
  unfold iblk1
  rw [View.read_apply]
  show V c main_v46 _ = V c main_v46 _
  refine congrArg (V c main_v46) ?_
  funext a
  apply Fin.ext
  match a with
  | ⟨0, _⟩ => show win1_0.index t (0 : Fin 2) * 4000 + 1 * p.val = (i 0).val; omega
  | ⟨1, _⟩ => show win1_0.index t (1 : Fin 2) * 16 + 1 * k.val = (i 1).val; omega

/-- The right matrix's block at any point is the whole array: its entry (k, q) is the array's entry (k, q). -/
theorem right_block (c : Dev nD) (t : Fin cfg1.N) (k : Fin 16) (q : Fin 3) (i : S16x3.Idx)
    (hi0 : (i 0).val = k.val) (hi1 : (i 1).val = q.val) :
    (iblk1 V c 1 t : Vec Ideal S16x3 .f32) (ix2 k q) = (V c main_arg3 : S16x3.Idx → EReal) i := by
  obtain ⟨-, -, e0, e1, -⟩ := block_indices t
  unfold iblk1
  rw [View.read_apply]
  show V c main_arg3 _ = V c main_arg3 _
  refine congrArg (V c main_arg3) ?_
  funext a
  apply Fin.ext
  match a with
  | ⟨0, _⟩ => show win1_1.index t (0 : Fin 2) * 16 + 1 * k.val = (i 0).val; omega
  | ⟨1, _⟩ => show win1_1.index t (1 : Fin 2) * 3 + 1 * q.val = (i 1).val; omega

/-- What point `t` writes back is block `t` of the product of the two arrays as the region finds them. -/
theorem flushed_eq (c : Dev nD) (t : Fin cfg1.N) :
    (dat1 (F := Ideal) V c).flushed 2 t
      = ((cfg1.win 2).blk t).view.read (Elt Ideal) (product (V c main_v46) (V c main_arg3)) := by
  show (cfg1.win 2).cut (grid1.coords t) ((dat1 V c).after 2 t) = _
  rw [after1_2]
  unfold out1_2
  rw [View.canon_unit_zero offsets_zero]
  simp only [View.ld_unit_zero (S := S4000x16) offsets_zero, View.ld_unit_zero (S := S16x3) offsets_zero]
  obtain ⟨-, -, -, -, e0, e1⟩ := block_indices t
  funext j
  show k1_pay1 (iblk1 V c 0 t) (iblk1 V c 1 t) j
    = product (V c main_v46) (V c main_arg3) (((cfg1.win 2).blk t).view.emb j)
  refine payload_eq_product (V c main_v46) (V c main_arg3) (iblk1 V c 0 t) (iblk1 V c 1 t) t.val
    (fun p k i h0 h1 => left_block V c t p k i h0 h1) (fun k q i h0 h1 => right_block V c t k q i h0 h1)
    j (((cfg1.win 2).blk t).view.emb j) ?_ ?_
  · show win1_2.index t (0 : Fin 2) * 4000 + 1 * (j 0).val = t.val * 4000 + (j 0).val; omega
  · show win1_2.index t (1 : Fin 2) * 3 + 1 * (j 1).val = (j 1).val; omega

/-- An entry of the output array is in point `t`'s block iff each coordinate is in the block's range on its axis. -/
theorem mem_block (t : Fin cfg1.N) (i : S100000x3.Idx) :
    i ∈ ((cfg1.win 2).blk t).view.set ↔ ∀ a : Fin 2, win1_2.index t a * S4000x3.size a ≤ (i a).val
      ∧ (i a).val < win1_2.index t a * S4000x3.size a + S4000x3.size a := by
  show i ∈ ((View.whole main_v47).slice (win1_2.rect t)).set ↔ _
  rw [View.set_slice_whole, Rect.mem_set_unit]
  exact Iff.rfl

/-- The 25 row blocks cover the array: row `r` is in the block of point `r / 4000`, and every point writes back. -/
theorem cover (i : S100000x3.Idx) :
    ∃ t : Fin cfg1.N, (cfg1.win 2).flush t = true ∧ i ∈ ((cfg1.win 2).blk t).view.set := by
  have hN : cfg1.N = 25 := N_1
  have hi0 : (i 0).val < 100000 := (i 0).isLt
  have hi1 : (i 1).val < 3 := (i 1).isLt
  let t : Fin cfg1.N := ⟨(i 0).val / 4000, by rw [hN]; omega⟩
  obtain ⟨-, -, -, -, e0, e1⟩ := block_indices t
  have ht : t.val = (i 0).val / 4000 := rfl
  refine ⟨t, flush1_2 t, ?_⟩
  rw [mem_block]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 3 ≤ (i 1).val ∧ (i 1).val < win1_2.index t (1 : Fin 2) * 3 + 3
    omega

/-- The output array after the region is the product of the two arrays as the region finds them, entry by entry. -/
theorem array_product (c : Dev nD) :
    (dat1 (F := Ideal) V c).arrAt 2 cfg1.N = product (V c main_v46) (V c main_arg3) :=
  (dat1 V c).arrAt_eq_of_cover 2 (product (V c main_v46) (V c main_arg3)) (fun t _ => flushed_eq V c t) cover

/-- The reference's `dot_general` of two arrays is their product, entry by entry. -/
theorem dotGeneral_eq_product (a : FVec Ideal S100000x16 .f32) (b : FVec Ideal S16x3 .f32) :
    Host.dotGeneral (F := Ideal) Cert.ReferenceIdeal.dot_S100000x16_S16x3_S100000x3_1_0_0_1_n_n none a b = product a b := by
  funext i
  obtain ⟨p, q, rfl⟩ : ∃ (p : Fin 100000) (q : Fin 3), i = ix2 p q := ⟨i 0, i 1, eq_ix2 i⟩
  exact ref1_apply a b p q

/-- The second pallas_call's output array after the region is the reference's `dot_general` of its two operand arrays
    as the region finds them. -/
theorem array_eq (c : Dev nD) :
    (dat1 (F := Ideal) V c).arrAt 2 cfg1.N
      = Host.dotGeneral (F := Ideal) (φ₁ := .f32) (φ₂ := .f32) Cert.ReferenceIdeal.dot_S100000x16_S16x3_S100000x3_1_0_0_1_n_n none
          (V c main_v46) (V c main_arg3) :=
  (array_product V c).trans (dotGeneral_eq_product (V c main_v46) (V c main_arg3)).symm

end Cert.KernelIdeal.Region1

end
-- ==== Proof.KResult.lean ====
/-
  The idealized kernel's result array is the network of its six arguments. The backward reading of the fold is closed
  here at the exact instance, where each of the two tiled regions leaves the whole matrix product in its output array:
  the result is the second layer of the second product; the second product is taken of the hidden features and the second
  weight matrix as launched; the hidden features are the first layer of the first product; the first product is taken of
  the node features and the first weight matrix as launched; and the index vectors, the entry weights and the biases
  that the layers read are those of the arguments as launched.
-/
import proofs.«144744_j16801912062043_1_alg».proof.Proof.KValue
import proofs.«144744_j16801912062043_1_alg».proof.Proof.Region0Product
import proofs.«144744_j16801912062043_1_alg».proof.Proof.Region1Product
import Idealize.ShloMosaic.PureOps.Ideal

set_option maxRecDepth 65536

noncomputable section

namespace Cert.KernelIdeal.ResultValue

open Cert.KernelIdeal Cert.KernelIdeal.Gen Idealize.ShloMosaic Idealize.ShloMosaic.TcCoe Idealize.SL.Sem Idealize.ShloMosaic.StableHlo
open Cert.Gcn Cert.KernelIdeal.Stretches

variable (m : (ℓ : Loc nD τ sig) → Buf (Elt Ideal) ℓ) (ρ : Dev nD → PrngReg)

/-- At the end of the fold the result buffer holds the network of the six arguments as launched. -/
theorem result_closed_form (c : Dev nD) :
    W7 m ρ c (Proc.devRef .tc main_v64)
      = network (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e1 : V1 m ρ c main_arg0 = m ((c : Thread nD τ).loc main_arg0) := arg0_at_entry0 m ρ c
  have e2 : V1 m ρ c main_arg1 = m ((c : Thread nD τ).loc main_arg1) := arg1_at_entry0 m ρ c
  have e3 : V4 m ρ c main_v46 = _ := hidden_at m ρ c
  unfold network
  rw [out_at, src_at_entry2, dst_at_entry2, norm_at_entry2, bias2_at_entry2, product2_at_entry2,
    Cert.KernelIdeal.Region1.array_eq, weight2_at_product2, e3,
    src_at_entry1, dst_at_entry1, norm_at_entry1, bias1_at_entry1, product1_at_entry1,
    Cert.KernelIdeal.Region0.array_eq, e1, e2]

end Cert.KernelIdeal.ResultValue

end
-- ==== Proof.RefValue.lean ====
/-
  What the idealized reference's result array holds, in the specification's words. The reference is one straight line
  of host operations; its result is one closed term of the argument arrays. That term is the specification's second
  layer of the whole matrix product of the hidden features with the second weight matrix, the hidden features being the
  specification's first layer of the whole matrix product of the node features with the first weight matrix. The
  reference builds the index vectors and the entry weights once per layer; both copies are the same functions of the
  edge list, so one name serves for both. Nothing is computed here: the two sides are the same term.
-/
import proofs.«144744_j16801912062043_1_alg».proof.Proof.RefRun
import proofs.«144744_j16801912062043_1_alg».proof.Proof.Spec

set_option maxRecDepth 65536

noncomputable section

namespace Cert.ReferenceIdeal.ResultValue

open Cert.ReferenceIdeal Cert.ReferenceIdeal.Gen Idealize.ShloMosaic Idealize.ShloMosaic.TcCoe Idealize.SL.Sem
open Cert.Gcn

variable {F : FTy → Type} [FloatOps F]

/-- The reference's result is the network of its six arguments as launched. -/
theorem result_closed_form (m : (ℓ : Loc nD τ sig) → Buf (Elt F) ℓ) (c : Dev nD) :
    Cert.ReferenceIdeal.ValueP.res_main_v89 m c
      = network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v89 network
  rfl

end Cert.ReferenceIdeal.ResultValue

end
-- ==== Proof.lean ====
/-
  The certificate of a two-layer graph convolution: a program that multiplies the node features by each layer's weight
  matrix in row tiles on the TensorCore, against the reference that multiplies whole, both at the exact instance (floats
  extended reals, operations exact, changes of float format the identity).

  Everything outside the two matrix products is the same host computation in both programs: from the edge list, the
  source and destination vectors with one self-loop per node, the degrees, and the entry weights
  1 / sqrt (max deg 1) at both ends; per layer, rows gathered by source, weighted, summed by destination, the bias
  added; a maximum with zero after the first layer and a row-wise log-softmax after the second. The reference builds the
  vectors and weights once per layer and the kernel once for both, which is the same function of the edge list. The
  specification (Proof/Spec.lean) names these functions once, with the matrix products as arguments.

  The kernel's two regions each walk twenty-five blocks of four thousand rows; a block of the output is the product of
  the block of rows with the whole weight matrix, rounded to bfloat16 on the way in (the identity here) and accumulated
  from zero. Entry by entry that is the finite sum over the contracted axis, which is also what the reference's
  dot_general is: the blocks tile the rows, so each region's output array is the whole product
  (Proof/Region0Product.lean, Proof/Region1Product.lean over Proof/ProductAtIndex.lean). No finiteness is used: the two
  sides are the same sums of the same products.

  The kernel's run is read buffer by buffer (Proof/KRun.lean), its three host stretches as specification functions
  (Proof/KStretches.lean), and the fold backwards from the result to the arguments (Proof/KValue.lean, Proof/KResult.lean);
  the reference's run is one straight line whose result is the same composition (Proof/RefRun.lean, Proof/RefValue.lean).
  No operation of the kernel is rewritten in its idealized form: the idealized kernel is the kernel's own text read at the
  exact instance, so there is nothing to restate between the two.
-/
import proofs.«144744_j16801912062043_1_alg».proof.Defs
import proofs.«144744_j16801912062043_1_alg».proof.Proof.Gen.Kernel
import proofs.«144744_j16801912062043_1_alg».proof.Proof.Gen.Kernel.Skeleton
import proofs.«144744_j16801912062043_1_alg».proof.Proof.Gen.Kernel.Launch
import proofs.«144744_j16801912062043_1_alg».proof.Proof.Gen.Kernel.Points
import proofs.«144744_j16801912062043_1_alg».proof.Proof.Gen.Kernel.Frame
import proofs.«144744_j16801912062043_1_alg».proof.Proof.Gen.KernelIdeal
import proofs.«144744_j16801912062043_1_alg».proof.Proof.Gen.KernelIdeal.Skeleton
import proofs.«144744_j16801912062043_1_alg».proof.Proof.Gen.KernelIdeal.Launch
import proofs.«144744_j16801912062043_1_alg».proof.Proof.Gen.KernelIdeal.Points
import proofs.«144744_j16801912062043_1_alg».proof.Proof.Gen.KernelIdeal.Frame
import proofs.«144744_j16801912062043_1_alg».proof.Proof.Gen.ReferenceIdeal
import proofs.«144744_j16801912062043_1_alg».proof.Proof.Gen.Pre_finite_inputs
import proofs.«144744_j16801912062043_1_alg».proof.Proof.KRun
import proofs.«144744_j16801912062043_1_alg».proof.Proof.KResult
import proofs.«144744_j16801912062043_1_alg».proof.Proof.RefRun
import proofs.«144744_j16801912062043_1_alg».proof.Proof.RefValue
import Idealize.ShloMosaic.Adequacy
import Idealize.ShloMosaic.Init

set_option maxRecDepth 65536

noncomputable section

namespace Cert.Proof

open Idealize.ShloMosaic Idealize.ShloMosaic.TcCoe Idealize.SL.Sem

/-- The kernel as printed terminates from any memory and leaves its six argument arrays as launched. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference is a straight line of host operations, none of which writes an argument: its run with the result
    dropped. -/
theorem frame_reference : Cert.frame_ReferenceIdeal :=
  fun m ρ _ => (θ_run Cert.ReferenceIdeal.defs _ _).mono (fun _ h c => (h c).2)
    (Cert.ReferenceIdeal.ValueP.run (F := Ideal) m ρ)

/-- No operation was rewritten on the way to the idealized kernel. -/
theorem preserves : Cert.preserves_Kernel_KernelIdeal := trivial

/-- From memories that agree on the six arguments both idealized programs terminate, leave the arguments as launched,
    and end with the network of those arguments in their result arrays. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Gen.mem_uc Cert.KernelIdeal.main_v64 (by decide))).trans
          (Cert.KernelIdeal.ResultValue.result_closed_form m ρ c),
       (h c _ (Cert.KernelIdeal.Gen.mem_uc Cert.KernelIdeal.main_arg0 (by decide))).trans (Cert.KernelIdeal.Gen.W7_main_arg0 m ρ c),
       (h c _ (Cert.KernelIdeal.Gen.mem_uc Cert.KernelIdeal.main_arg1 (by decide))).trans (Cert.KernelIdeal.Gen.W7_main_arg1 m ρ c),
       (h c _ (Cert.KernelIdeal.Gen.mem_uc Cert.KernelIdeal.main_arg2 (by decide))).trans (Cert.KernelIdeal.Gen.W7_main_arg2 m ρ c),
       (h c _ (Cert.KernelIdeal.Gen.mem_uc Cert.KernelIdeal.main_arg3 (by decide))).trans (Cert.KernelIdeal.Gen.W7_main_arg3 m ρ c),
       (h c _ (Cert.KernelIdeal.Gen.mem_uc Cert.KernelIdeal.main_arg4 (by decide))).trans (Cert.KernelIdeal.Gen.W7_main_arg4 m ρ c),
       (h c _ (Cert.KernelIdeal.Gen.mem_uc Cert.KernelIdeal.main_arg5 (by decide))).trans (Cert.KernelIdeal.Gen.W7_main_arg5 m ρ c)⟩)
      (Cert.KernelIdeal.WholeRun.run_all m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ResultValue.result_closed_form, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
